-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x512 : Shape := ⟨2, ![8192, 512]⟩
abbrev S1024x512 : Shape := ⟨2, ![1024, 512]⟩
abbrev S1024 : Shape := ⟨1, ![1024]⟩
abbrev S1024x1 : Shape := ⟨2, ![1024, 1]⟩
abbrev S8192x8192 : Shape := ⟨2, ![8192, 8192]⟩
abbrev S1024x1024 : Shape := ⟨2, ![1024, 1024]⟩
abbrev S512x1024 : Shape := ⟨2, ![512, 1024]⟩

abbrev nBuf : Space → Nat
  | .hbm => 4
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .bf16⟩
  | .hbm, ⟨3, _⟩ => ⟨S8192x8192, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x1024, .f32⟩
  | .local _ .vmem, ⟨9, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  broadcasts_S1024x1_S1024x512 : S1024x1.Broadcasts S1024x512
  bitsLt_bf16_f32 : FTy.bits .bf16 < FTy.bits .f32
  packedbf16_S1024x512_S1024x512_0_0 : (Rect.unit (s := S1024x512) ![0, 0] S1024x512.size inb_S1024x512_S1024x512_0_0).PackedRows (EltTy.packing .bf16)
  shapeCasts_S1024x512_S1024x512 : S1024x512.ShapeCasts S1024x512
  transposes_S1024x512_p1_0_S512x1024 : S1024x512.Transposes [1, 0] S512x1024
  inb_S1024x1024_S1024x1024_0_0 : ∀ a, (![0, 0] : Fin 2 → Nat) a + S1024x1024.size a ≤ S1024x1024.size a
  h_S1024x1024 : 0 < S1024x1024.numel
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .bf16 = 32 ∨ (Rect.block (s := S8192x512) S1024x512.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .bf16 = 32 ∨ (Rect.block (s := S8192x512) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S8192x512.size a
  hwx1_1 : ∀ i : grid1.Coords, EltTy.bits .bf16 = 32 ∨ (Rect.block (s := S8192x512) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x8192.size a
  hwx1_2 : ∀ i : grid1.Coords, EltTy.bits .f32 = 32 ∨ (Rect.block (s := S8192x8192) S1024x1024.size (cc1_transform_2 i) (hinb1_2 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩

abbrev nBuf : Space → Nat
  | .hbm => 20
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x512, .f32⟩
  | .hbm, ⟨11, _⟩ => ⟨S8192x512, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .i1⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bcast_S_S8192x8192 : S_.BroadcastsInDim S8192x8192 (![] : Fin 0 → Fin S8192x8192.rank)
  dot_S8192x512_S8192x512_S8192x8192_1_1_0_0_n_n_wf : DotDims.WF S8192x512 S8192x512 S8192x8192 [1] [1] [0] [0] [] []

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.KFrameBodies.lean ====
/-
  The two kernel bodies of the printed kernel program as Hoare triples, and each pipeline's proof data.

  Region 0 scales blocks of 1024 rows; region 1 forms 1024 × 1024 tiles of rectified inner products of scaled rows.
  Stated at any float instance and at a parameter `V`, the buffer contents a region is entered from.
-/
import proofs.«146047_j72791105733237_1_alg».proof.Proof.Gen.Kernel.Launch
import proofs.«146047_j72791105733237_1_alg».proof.Proof.Gen.Kernel.Skeleton
import proofs.«146047_j72791105733237_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The two kernel bodies, each at the contents `V` its region is entered from

The first region scales each block of 1024 rows of the input; the second multiplies a block of scaled rows by the
transpose of another and rectifies. Of each body this module says only which buffers it reads and what it leaves in
its output buffer as a function of what it read: the arithmetic stays the named payload. -/

section Bodies

variable (V : (c : Dev nD) → (b : Ref sig .tc) → Buf (Elt F) ((c : Thread nD τ).loc b))

/-! ## Scaling the rows (pipeline 0) -/

/-- Window `w`'s block at grid point `t`, read off the array as the region finds it. -/
def rowsBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds the input's block at every point, for any proof data over these arrays
    whose body leaves that buffer as it found it. -/
theorem rows_in_of {c : Dev nD} (dat : Dat τ (Elt F) Unit ℕ (UR sig nD τ) ℕ cfg0 c) (hA : dat.A 0 = V c (Pipeline.arrRef spec0 0))
    (hafter : ∀ t, dat.after 0 t = rowsBlk V c 0 t) (t : Fin cfg0.N) (d) : dat.before 0 t d = rowsBlk V c 0 t :=
  (dat.before_in_eq_fetched 0 rfl (fun _ => rfl) (fun _ _ _ => rfl) (fun t => by rw [hafter]; unfold Dat.blockOf rowsBlk; rw [hA]; try rfl) t d).trans
    (by unfold Dat.fetched Dat.blockOf rowsBlk; rw [hA]; try rfl)

/-- The whole 1024 × 512 buffer as one rectangle: the body's one load and its one store. -/
abbrev wholeRows : Rect S1024x512 := Rect.unit (s := S1024x512) ![0, 0] S1024x512.size inb_S1024x512_S1024x512_0_0

/-- What the body leaves in the output window's buffer: the scaled rows of the block it loaded, stored whole. -/
def rowsOut (x0 : Vec F S1024x512 .f32) : Vec F S1024x512 .bf16 :=
  View.canon [⟨wholeRows, k0_pay1 (View.ld x0 wholeRows)⟩]

/-- That one store covers the buffer. -/
theorem rowsOut_cover (p0 : Vec F S1024x512 .bf16) (y : S1024x512.Idx) :
    ∃ pc ∈ ([⟨wholeRows, p0⟩] : List (View.Piece (Elt F) S1024x512 .bf16)), y ∈ pc.1.set :=
  View.cover_of_tiled [⟨wholeRows, p0⟩] S1024x512.size (by rfl) y

set_option maxHeartbeats 1000000 in
/-- The body's triple: on whole staging buffers, the input's at `x0` and the output's at anything, it returns holding
    the input's unchanged and the output's at `rowsOut x0`. -/
theorem rows_body (c : Dev nD) (E : Set ℕ) (i : grid0.Coords) (arg1 : Memref sig .tc .vmem S1024x512 .f32) (harg1 : arg1.IsWhole)
    (arg2 : Memref sig .tc .vmem S1024x512 .bf16) (harg2 : arg2.IsWhole)
    (x0 : Vec F S1024x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (rowsOut x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (rowsOut_cover _)

end Bodies

section Bodies1

variable (V : (c : Dev nD) → (b : Ref sig .tc) → Buf (Elt F) ((c : Thread nD τ).loc b))

/-! ## Inner products of scaled rows (pipeline 1)

Both input windows read the array of scaled rows: window 0 the block of rows the grid's first coordinate names, window 1
the block the second names. -/

/-- Window `w`'s block at grid point `t`, read off the array as the region finds it. -/
def gramBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left factor's staging buffer holds its block at every point — also at the points that do not fetch it, where the
    block index has not moved since the last fetch. -/
theorem gram_left_of {c : Dev nD} (dat : Dat τ (Elt F) Unit ℕ (UR sig nD τ) ℕ cfg1 c) (hA : dat.A 0 = V c (Pipeline.arrRef spec1 0))
    (hafter : ∀ t, dat.after 0 t = gramBlk V c 0 t) (t : Fin cfg1.N) (d) : dat.before 0 t d = gramBlk V c 0 t :=
  (dat.before_in_eq_fetched 0 rfl (fun _ => rfl) (fun _ _ _ => rfl) (fun t => by rw [hafter]; unfold Dat.blockOf gramBlk; rw [hA]; try rfl) t d).trans
    (by unfold Dat.fetched Dat.blockOf gramBlk; rw [hA]; try rfl)

/-- The right factor's staging buffer holds its block at every point. -/
theorem gram_right_of {c : Dev nD} (dat : Dat τ (Elt F) Unit ℕ (UR sig nD τ) ℕ cfg1 c) (hA : dat.A 1 = V c (Pipeline.arrRef spec1 1))
    (hafter : ∀ t, dat.after 1 t = gramBlk V c 1 t) (t : Fin cfg1.N) (d) : dat.before 1 t d = gramBlk V c 1 t :=
  (dat.before_in_eq_fetched 1 rfl (fun _ => rfl) (fun _ _ _ => rfl) (fun t => by rw [hafter]; unfold Dat.blockOf gramBlk; rw [hA]; try rfl) t d).trans
    (by unfold Dat.fetched Dat.blockOf gramBlk; rw [hA]; try rfl)

/-- The whole 1024 × 1024 output buffer as one rectangle: the body's one store. -/
abbrev wholeTile : Rect S1024x1024 := Rect.unit (s := S1024x1024) ![0, 0] S1024x1024.size inb_S1024x1024_S1024x1024_0_0

/-- What the body leaves in the output window's buffer: the rectified products of the two blocks it loaded. -/
def gramOut (a b : Vec F S1024x512 .bf16) : Vec F S1024x1024 .f32 :=
  View.canon [⟨wholeTile, k1_pay1 (View.ld a wholeRows) (View.ld b wholeRows)⟩]

/-- That one store covers the buffer. -/
theorem gramOut_cover (p0 : Vec F S1024x1024 .f32) (y : S1024x1024.Idx) :
    ∃ pc ∈ ([⟨wholeTile, p0⟩] : List (View.Piece (Elt F) S1024x1024 .f32)), y ∈ pc.1.set :=
  View.cover_of_tiled [⟨wholeTile, p0⟩] S1024x1024.size (by rfl) y

set_option maxHeartbeats 1000000 in
/-- The body's triple: on whole staging buffers, the factors' at `a` and `b` and the output's at anything, it returns
    holding the factors' unchanged and the output's at `gramOut a b`. -/
theorem gram_body (c : Dev nD) (E : Set ℕ) (i : grid1.Coords) (arg2 : Memref sig .tc .vmem S1024x512 .bf16) (harg2 : arg2.IsWhole)
    (arg3 : Memref sig .tc .vmem S1024x512 .bf16) (harg3 : arg3.IsWhole)
    (arg4 : Memref sig .tc .vmem S1024x1024 .f32) (harg4 : arg4.IsWhole)
    (a b : Vec F S1024x512 .bf16) (K : PUnit → sProp 𝕄) :
    iprop(owns (c : Thread nD τ) arg2 fullShare a ∗ owns (c : Thread nD τ) arg3 fullShare b ∗ (∃ d, owns (c : Thread nD τ) arg4 fullShare d)
        ∗ (iprop(owns (c : Thread nD τ) arg2 fullShare a ∗ owns (c : Thread nD τ) arg3 fullShare b
            ∗ owns (c : Thread nD τ) arg4 fullShare (gramOut a b)) -∗ K ⟨⟩))
      ⊢ wp frame (wpE (defs₀ (F := F)) Variants.none c none) E (cc1__matmul_leaky_kernel i arg2 harg2 arg3 harg3 arg4 harg4) K := by
  simp only [cc1__matmul_leaky_kernel_eq_skeleton]; unfold cc1__matmul_leaky_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (gramOut_cover _)

end Bodies1

section Data

variable (V : (c : Dev nD) → (b : Ref sig .tc) → Buf (Elt F) ((c : Thread nD τ).loc b))

/-! ## The proof data of the two pipelines -/

/-- Pipeline 0 on core `c`: the arrays as the region finds them; after the body the input's buffer at its block and
    the output's at the block's scaled rows; the invariant the scoped buffers no window stages and the generator
    register; nothing owed; full shares. -/
def rowsDat (c : Dev nD) : Dat τ (Elt F) Unit ℕ (UR sig nD τ) ℕ cfg0 c where
  A w := V c (Pipeline.arrRef spec0 w)
  after w t := match w with
    | ⟨0, _⟩ => rowsBlk V c 0 t
    | ⟨1, _⟩ => rowsOut (rowsBlk V c 0 t)
  Φ _ := Pipeline.ΦA spec0 c
  q _ := fullShare
  owed _ := 0

theorem rowsDat_A (c : Dev nD) (w : Fin cfg0.W) : (rowsDat V c).A w = V c (Pipeline.arrRef spec0 w) := by
  dsimp only [rowsDat]
theorem rowsDat_after0 (c : Dev nD) (t : Fin cfg0.N) : (rowsDat V c).after 0 t = rowsBlk V c 0 t := by dsimp only [rowsDat]
theorem rowsDat_after1 (c : Dev nD) (t : Fin cfg0.N) : (rowsDat V c).after 1 t = rowsOut (rowsBlk V c 0 t) := by dsimp only [rowsDat]
theorem rowsDat_before0 (c : Dev nD) (t : Fin cfg0.N) (d) : (rowsDat V c).before 0 t d = rowsBlk V c 0 t :=
  rows_in_of V (rowsDat V c) (rowsDat_A V c 0) (rowsDat_after0 V c) t d

/-- The body obligation of pipeline 0 at every point: the input's buffer holds its block, so the body's triple applies;
    the invariant and the core's dues pass through unread. -/
theorem rows_obligation (c : Dev nD) : BodyObligation (rowsDat (F := F) V c) (defs₀ (F := F)) Variants.none () Set.univ := fun t => by
  rw [bigSep_W0, bigSep_W0]
  show iprop((rowsDat V c).Φ t.castSucc ∗ (rowsDat V c).owesAt () t.castSucc
      ∗ (∃ d, owns (c : Thread nD τ) (st0_0 t) fullShare ((rowsDat V c).before 0 t d))
      ∗ (∃ d, owns (c : Thread nD τ) (st0_1 t) fullShare ((rowsDat V c).before 1 t d)))
    ⊢ wp frame (wpE (defs₀ (F := F)) Variants.none c none) Set.univ (bodyAt0 t) (fun _ =>
      iprop((rowsDat V c).Φ t.succ ∗ (rowsDat V c).owesAt () t.succ
        ∗ owns (c : Thread nD τ) (st0_0 t) fullShare ((rowsDat V c).after 0 t)
        ∗ owns (c : Thread nD τ) (st0_1 t) fullShare ((rowsDat V c).after 1 t)))
  unfold bodyAt0
  simp only [rowsDat_before0]
  rw [show (rowsDat V c).Φ t.succ = (rowsDat V c).Φ t.castSucc from rfl,
    show (rowsDat V c).owesAt () t.succ = (rowsDat V c).owesAt () t.castSucc from rfl,
    rowsDat_after0, rowsDat_after1]
  iintro ⟨HΦ, Ho, ⟨%d0, H0⟩, ⟨%d1, H1⟩⟩
  iapply (rows_body c Set.univ _ _ _ _ _ (rowsBlk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- Pipeline 1 on core `c`: the arrays as the region finds them; after the body each factor's buffer at its block and
    the output's at their rectified products; the same invariant; nothing owed. The array of scaled rows is read by
    both input windows, so each holds HALF of it: window 0 the left half share, window 1 the right. -/
def gramDat (c : Dev nD) : Dat τ (Elt F) Unit ℕ (UR sig nD τ) ℕ cfg1 c where
  A w := V c (Pipeline.arrRef spec1 w)
  after w t := match w with
    | ⟨0, _⟩ => gramBlk V c 0 t
    | ⟨1, _⟩ => gramBlk V c 1 t
    | ⟨2, _⟩ => gramOut (gramBlk V c 0 t) (gramBlk V c 1 t)
  Φ _ := Pipeline.ΦA spec1 c
  q w := match w with
    | ⟨0, _⟩ => fullShare.left
    | ⟨1, _⟩ => fullShare.right
    | ⟨2, _⟩ => fullShare
  owed _ := 0

theorem gramDat_A (c : Dev nD) (w : Fin cfg1.W) : (gramDat V c).A w = V c (Pipeline.arrRef spec1 w) := by
  dsimp only [gramDat]
theorem gramDat_after0 (c : Dev nD) (t : Fin cfg1.N) : (gramDat V c).after 0 t = gramBlk V c 0 t := by dsimp only [gramDat]
theorem gramDat_after1 (c : Dev nD) (t : Fin cfg1.N) : (gramDat V c).after 1 t = gramBlk V c 1 t := by dsimp only [gramDat]
theorem gramDat_after2 (c : Dev nD) (t : Fin cfg1.N) :
    (gramDat V c).after 2 t = gramOut (gramBlk V c 0 t) (gramBlk V c 1 t) := by dsimp only [gramDat]
theorem gramDat_before0 (c : Dev nD) (t : Fin cfg1.N) (d) : (gramDat V c).before 0 t d = gramBlk V c 0 t :=
  gram_left_of V (gramDat V c) (gramDat_A V c 0) (gramDat_after0 V c) t d
theorem gramDat_before1 (c : Dev nD) (t : Fin cfg1.N) (d) : (gramDat V c).before 1 t d = gramBlk V c 1 t :=
  gram_right_of V (gramDat V c) (gramDat_A V c 1) (gramDat_after1 V c) t d

/-- The body obligation of pipeline 1 at every point. -/
theorem gram_obligation (c : Dev nD) : BodyObligation (gramDat (F := F) V c) (defs₀ (F := F)) Variants.none () Set.univ := fun t => by
  rw [bigSep_W1, bigSep_W1]
  show iprop((gramDat V c).Φ t.castSucc ∗ (gramDat V c).owesAt () t.castSucc
      ∗ (∃ d, owns (c : Thread nD τ) (st1_0 t) fullShare ((gramDat V c).before 0 t d))
      ∗ (∃ d, owns (c : Thread nD τ) (st1_1 t) fullShare ((gramDat V c).before 1 t d))
      ∗ (∃ d, owns (c : Thread nD τ) (st1_2 t) fullShare ((gramDat V c).before 2 t d)))
    ⊢ wp frame (wpE (defs₀ (F := F)) Variants.none c none) Set.univ (bodyAt1 t) (fun _ =>
      iprop((gramDat V c).Φ t.succ ∗ (gramDat V c).owesAt () t.succ
        ∗ owns (c : Thread nD τ) (st1_0 t) fullShare ((gramDat V c).after 0 t)
        ∗ owns (c : Thread nD τ) (st1_1 t) fullShare ((gramDat V c).after 1 t)
        ∗ owns (c : Thread nD τ) (st1_2 t) fullShare ((gramDat V c).after 2 t)))
  unfold bodyAt1
  simp only [gramDat_before0, gramDat_before1]
  rw [show (gramDat V c).Φ t.succ = (gramDat V c).Φ t.castSucc from rfl,
    show (gramDat V c).owesAt () t.succ = (gramDat V c).owesAt () t.castSucc from rfl,
    gramDat_after0, gramDat_after1, gramDat_after2]
  iintro ⟨HΦ, Ho, ⟨%d0, H0⟩, ⟨%d1, H1⟩, ⟨%d2, H2⟩⟩
  iapply (gram_body c Set.univ _ _ _ _ _ _ _ (gramBlk V c 0 t) (gramBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Data

end Cert.Kernel.Fr

end
-- ==== Proof.KFrameShare.lean ====
/-
  Dealing one array to two input windows of a pipeline and collecting it again (the second region of the idealized
  kernel program reads its array of scaled rows through both of its input windows).
-/
import proofs.«146047_j72791105733237_1_alg».proof.Proof.KFrameBodies

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Share

variable (V : (c : Dev nD) → (b : Ref sig .tc) → Buf (Elt F) ((c : Thread nD τ).loc b))

/-! # One array under two input windows

Pipeline 1 reads the array of scaled rows through both of its input windows. The pipeline holds each window's array at
that window's share, so the array's buffer, held whole at the full share between regions, is dealt to the two windows
half and half on the way in and put together again on the way out. -/

/-- Pipeline 1's windows sit on two buffers: the scaled rows (twice) and the result. -/
theorem gram_arrRefs : Finset.univ.image (Pipeline.arrRef spec1) = ({main_v0, main_v1} : Finset (Ref sig .tc)) := by decide

/-- IN: the two buffers whole at the full share are the pipeline's arrays at the entry contents — the scaled rows split
    into their left half share for window 0 and right half share for window 1. -/
theorem gram_arrays_of_bufs (c : Dev nD) :
    (Pipeline.arrBufs (Ix := Unit) (Name := ℕ) (U := UR sig nD τ) (Lvl := ℕ) spec1 c (V c) : sProp 𝕄)
      ⊢ (gramDat V c).arrays (gramDat V c).A := by
  unfold Pipeline.arrBufs Dat.arrays
  rw [gram_arrRefs, bigSep_W1, bigSep_insert (by decide), bigSep_singleton,
    (arr_whole1 0).set_eq_univ, (arr_whole1 2).set_eq_univ]
  refine (show iprop((((c : Thread nD τ).loc main_v0) ↦{fullShare} V c main_v0) ∗ (((c : Thread nD τ).loc main_v1) ↦{fullShare} V c main_v1)) ⊢ _ from ?_)
  iintro ⟨H0, H1⟩
  ihave H0' := (pointsTo_share (PosShare.mem_left_op_right fullShare)).1 $$ H0
  icases H0' with ⟨Hl, Hr⟩
  isplitl [Hl]; · iexact Hl
  isplitl [Hr]; · iexact Hr
  iexact H1

/-- OUT: the pipeline's arrays, the two input windows' at the contents they entered with and the output's at `B`, are
    the two buffers whole at the full share again: the halves of the scaled rows rejoined, the result at `B`. -/
theorem gram_bufs_of_arrays (c : Dev nD) (G : (w : Fin cfg1.W) → Buf (Elt F) ((cfg1.win w).arr.view.loc (c : Thread nD τ)))
    (h0 : G 0 = V c main_v0) (h1 : G 1 = V c main_v0) :
    (gramDat V c).arrays G
      ⊢ (iprop((((c : Thread nD τ).loc main_v0) ↦{fullShare} V c main_v0) ∗ (((c : Thread nD τ).loc main_v1) ↦{fullShare} G 2) : sProp 𝕄)) := by
  unfold Dat.arrays
  rw [bigSep_W1, (arr_whole1 0).set_eq_univ, (arr_whole1 2).set_eq_univ, h0, h1]
  iintro ⟨Hl, Hr, H2⟩
  isplitl [Hl Hr]
  · iapply (pointsTo_share (PosShare.mem_left_op_right fullShare)).2
    isplitl [Hl]; · iexact Hl
    iexact Hr
  iexact H2

end Share

end Cert.Kernel.Fr

end
-- ==== Proof.KFrameRun.lean ====
/-
  The run of the printed kernel program's @main as its two kernel regions in order, from the buffer contents at launch
  to those at the end, and the frame claim read off it.
-/
import proofs.«146047_j72791105733237_1_alg».proof.Proof.KFrameShare

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: two regions, nothing between them

The contents of the TensorCore's unscoped buffers at the three boundaries: at launch; after region 0, which writes the
array of scaled rows; after region 1, which writes the result. -/

/-- At launch (region 0's entry). -/
abbrev W0 : Dev nD → Valuation τ sig (Elt F) := fun c b => m (c, b)
abbrev V0 : (c : Dev nD) → (b : Ref sig .tc) → Buf (Elt F) ((c : Thread nD τ).loc b) := fun c b => W0 m c b

/-- After region 0 (region 1's entry): its arrays at what the pipeline leaves, every other buffer as launched. -/
def W1 (c : Dev nD) : Valuation τ sig (Elt F) :=
  Pipeline.withArrays spec0 c (W0 m c) fun w => (rowsDat (V0 m) c).arrAt w cfg0.N
theorem W1_arr (c : Dev nD) (w : Fin cfg0.W) :
    W1 m c (Proc.devRef .tc (Pipeline.arrRef spec0 w)) = (rowsDat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem rows_exit_arr (c : Dev nD) (w : Fin cfg0.W) : (rowsDat (V0 m) c).arrAt w cfg0.N = V1 m c (Pipeline.arrRef spec0 w) :=
  (W1_arr m c w).symm
theorem rows_exit_rest (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After region 1 (the end): the result's buffer at what the pipeline leaves, every other buffer as region 1 found it. -/
def W2 (c : Dev nD) : Valuation τ sig (Elt F) :=
  Function.update (W1 m c) (Proc.devRef .tc main_v1) ((gramDat (V1 m) c).arrAt 2 cfg1.N)
abbrev V2 : (c : Dev nD) → (b : Ref sig .tc) → Buf (Elt F) ((c : Thread nD τ).loc b) := fun c b => W2 m c b
theorem W2_result (c : Dev nD) : V2 m c main_v1 = (gramDat (V1 m) c).arrAt 2 cfg1.N := by
  show W2 m c (Proc.devRef .tc main_v1) = _
  unfold W2; exact Function.update_self ..
theorem W2_of_ne (c : Dev nD) (b : Ref sig .tc) (hb : b ≠ main_v1) : V2 m c b = V1 m c b := by
  show W2 m c (Proc.devRef .tc b) = W1 m c (Proc.devRef .tc b)
  unfold W2; exact Function.update_of_ne (StableHlo.devRef_ne_of_ne hb) ..

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => rowsDat (V0 m) c
  | ⟨1, _⟩ => fun c => gramDat (V1 m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev Tₙ (c : Dev nD) : sProp 𝕄 := iprop(StableHlo.held (c : Thread nD τ) (Pipeline.ucRefs τ sig) (W2 m c) ∗ ∃ r, prngReg c r)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- REGION 0: entered from every unscoped buffer at the launch contents, left at `W1`. Its two arrays are distinct
    buffers, split out of the unscoped buffers at the full share and put back at the exit contents. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (rows_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (rows_exit_arr m c) (rows_exit_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1: entered from every unscoped buffer at `W1`, left at `W2`. Its two input windows sit on ONE buffer, the
    scaled rows: the buffer is dealt to them in halves at the entry and collected at the exit, unchanged (an input
    array is never written); the result's buffer goes in whole and comes back at what the write-backs leave. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (gram_obligation (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit : (StableHlo.held (c : Thread nD τ) (Pipeline.ucRefs τ sig) (W1 m c) : sProp 𝕄)
        ⊢ iprop((pdats m 1 c).arrays ((pdats m 1 c).arrAt · 0) ∗ Pipeline.unscopedRest spec1 c (V1 m c)) := by
      rw [← Pipeline.unscopedBufs_held c (W1 m c), Pipeline.unscopedBufs_split₀ cfgs 1 winFacts₀1.arr_unscoped c (V1 m c)]
      exact sep_mono (gram_arrays_of_bufs (V1 m) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (V1 m c))
        ⊢ (StableHlo.held (c : Thread nD τ) (Pipeline.ucRefs τ sig) (W2 m c) : sProp 𝕄) := by
      have hs₂ : (unscopedBufs c (V2 m c) : sProp 𝕄)
          = iprop(Pipeline.arrBufs spec1 c (V2 m c) ∗ Pipeline.unscopedRest spec1 c (V2 m c)) :=
        Pipeline.unscopedBufs_split₀ cfgs 1 winFacts₀1.arr_unscoped c (V2 m c)
      rw [← Pipeline.unscopedBufs_held c (W2 m c), hs₂]
      refine BI.sep_mono ?_ ?_
      · refine (gram_bufs_of_arrays (V1 m) c _ ((gramDat (V1 m) c).arrAt_in 0 rfl _) ((gramDat (V1 m) c).arrAt_in 1 rfl _)).trans ?_
        unfold Pipeline.arrBufs
        rw [gram_arrRefs, bigSep_insert (by decide), bigSep_singleton, W2_of_ne m c main_v0 (by decide), W2_result]
        exact .rfl
      · rw [unscopedRest1_eq, unscopedRest1_eq, W2_of_ne m c main_arg0 (by decide), W2_of_ne m c main_arg1 (by decide)]
        exact BI.Entails.refl _
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m), .region (reg1 m) ]

theorem main_run (c : Dev nD) : main (F := F) c = Pipeline.Seg.run (segs m) := (main_chain c).trans (by chain_rfl)

set_option backward.isDefEq.respectTransparency.types false in
/-- THE RUN: from any memory with zero counters, every weakly fair execution of @main on the TensorCores terminates,
    nothing faulting, and in every final state each unscoped buffer of the core holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- The frame: every argument array ends as launched. Neither region writes one: region 0 reads the second through an
    input window and bypasses the first, region 1 bypasses both. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans ((W2_of_ne m c main_arg0 (by decide)).trans (W1_of_ne m c main_arg0 (by decide))),
     (h c _ (mem_uc main_arg1 (by decide))).trans ((W2_of_ne m c main_arg1 (by decide)).trans
       ((W1_arr m c 0).trans (((rowsDat (V0 m) c).arrAt_in 0 rfl _).trans (rowsDat_A (V0 m) c 0))))⟩) (run_main m ρ)

end Cert.Kernel.Fr

end
-- ==== Proof.FrameBodies.lean ====
/-
  The two kernel bodies of the idealized kernel program as Hoare triples, and each pipeline's proof data.

  Region 0 scales blocks of 1024 rows; region 1 forms 1024 × 1024 tiles of rectified inner products of scaled rows.
  Stated at any float instance and at a parameter `V`, the buffer contents a region is entered from.
-/
import proofs.«146047_j72791105733237_1_alg».proof.Proof.Gen.KernelIdeal.Launch
import proofs.«146047_j72791105733237_1_alg».proof.Proof.Gen.KernelIdeal.Skeleton
import proofs.«146047_j72791105733237_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The two kernel bodies, each at the contents `V` its region is entered from

The first region scales each block of 1024 rows of the input; the second multiplies a block of scaled rows by the
transpose of another and rectifies. Of each body this module says only which buffers it reads and what it leaves in
its output buffer as a function of what it read: the arithmetic stays the named payload. -/

section Bodies

variable (V : (c : Dev nD) → (b : Ref sig .tc) → Buf (Elt F) ((c : Thread nD τ).loc b))

/-! ## Scaling the rows (pipeline 0) -/

/-- Window `w`'s block at grid point `t`, read off the array as the region finds it. -/
def rowsBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds the input's block at every point, for any proof data over these arrays
    whose body leaves that buffer as it found it. -/
theorem rows_in_of {c : Dev nD} (dat : Dat τ (Elt F) Unit ℕ (UR sig nD τ) ℕ cfg0 c) (hA : dat.A 0 = V c (Pipeline.arrRef spec0 0))
    (hafter : ∀ t, dat.after 0 t = rowsBlk V c 0 t) (t : Fin cfg0.N) (d) : dat.before 0 t d = rowsBlk V c 0 t :=
  (dat.before_in_eq_fetched 0 rfl (fun _ => rfl) (fun _ _ _ => rfl) (fun t => by rw [hafter]; unfold Dat.blockOf rowsBlk; rw [hA]; try rfl) t d).trans
    (by unfold Dat.fetched Dat.blockOf rowsBlk; rw [hA]; try rfl)

/-- The whole 1024 × 512 buffer as one rectangle: the body's one load and its one store. -/
abbrev wholeRows : Rect S1024x512 := Rect.unit (s := S1024x512) ![0, 0] S1024x512.size inb_S1024x512_S1024x512_0_0

/-- What the body leaves in the output window's buffer: the scaled rows of the block it loaded, stored whole. -/
def rowsOut (x0 : Vec F S1024x512 .f32) : Vec F S1024x512 .bf16 :=
  View.canon [⟨wholeRows, k0_pay1 (View.ld x0 wholeRows)⟩]

/-- That one store covers the buffer. -/
theorem rowsOut_cover (p0 : Vec F S1024x512 .bf16) (y : S1024x512.Idx) :
    ∃ pc ∈ ([⟨wholeRows, p0⟩] : List (View.Piece (Elt F) S1024x512 .bf16)), y ∈ pc.1.set :=
  View.cover_of_tiled [⟨wholeRows, p0⟩] S1024x512.size (by rfl) y

set_option maxHeartbeats 1000000 in
/-- The body's triple: on whole staging buffers, the input's at `x0` and the output's at anything, it returns holding
    the input's unchanged and the output's at `rowsOut x0`. -/
theorem rows_body (c : Dev nD) (E : Set ℕ) (i : grid0.Coords) (arg1 : Memref sig .tc .vmem S1024x512 .f32) (harg1 : arg1.IsWhole)
    (arg2 : Memref sig .tc .vmem S1024x512 .bf16) (harg2 : arg2.IsWhole)
    (x0 : Vec F S1024x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (rowsOut x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (rowsOut_cover _)

end Bodies

section Bodies1

variable (V : (c : Dev nD) → (b : Ref sig .tc) → Buf (Elt F) ((c : Thread nD τ).loc b))

/-! ## Inner products of scaled rows (pipeline 1)

Both input windows read the array of scaled rows: window 0 the block of rows the grid's first coordinate names, window 1
the block the second names. -/

/-- Window `w`'s block at grid point `t`, read off the array as the region finds it. -/
def gramBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left factor's staging buffer holds its block at every point — also at the points that do not fetch it, where the
    block index has not moved since the last fetch. -/
theorem gram_left_of {c : Dev nD} (dat : Dat τ (Elt F) Unit ℕ (UR sig nD τ) ℕ cfg1 c) (hA : dat.A 0 = V c (Pipeline.arrRef spec1 0))
    (hafter : ∀ t, dat.after 0 t = gramBlk V c 0 t) (t : Fin cfg1.N) (d) : dat.before 0 t d = gramBlk V c 0 t :=
  (dat.before_in_eq_fetched 0 rfl (fun _ => rfl) (fun _ _ _ => rfl) (fun t => by rw [hafter]; unfold Dat.blockOf gramBlk; rw [hA]; try rfl) t d).trans
    (by unfold Dat.fetched Dat.blockOf gramBlk; rw [hA]; try rfl)

/-- The right factor's staging buffer holds its block at every point. -/
theorem gram_right_of {c : Dev nD} (dat : Dat τ (Elt F) Unit ℕ (UR sig nD τ) ℕ cfg1 c) (hA : dat.A 1 = V c (Pipeline.arrRef spec1 1))
    (hafter : ∀ t, dat.after 1 t = gramBlk V c 1 t) (t : Fin cfg1.N) (d) : dat.before 1 t d = gramBlk V c 1 t :=
  (dat.before_in_eq_fetched 1 rfl (fun _ => rfl) (fun _ _ _ => rfl) (fun t => by rw [hafter]; unfold Dat.blockOf gramBlk; rw [hA]; try rfl) t d).trans
    (by unfold Dat.fetched Dat.blockOf gramBlk; rw [hA]; try rfl)

/-- The whole 1024 × 1024 output buffer as one rectangle: the body's one store. -/
abbrev wholeTile : Rect S1024x1024 := Rect.unit (s := S1024x1024) ![0, 0] S1024x1024.size inb_S1024x1024_S1024x1024_0_0

/-- What the body leaves in the output window's buffer: the rectified products of the two blocks it loaded. -/
def gramOut (a b : Vec F S1024x512 .bf16) : Vec F S1024x1024 .f32 :=
  View.canon [⟨wholeTile, k1_pay1 (View.ld a wholeRows) (View.ld b wholeRows)⟩]

/-- That one store covers the buffer. -/
theorem gramOut_cover (p0 : Vec F S1024x1024 .f32) (y : S1024x1024.Idx) :
    ∃ pc ∈ ([⟨wholeTile, p0⟩] : List (View.Piece (Elt F) S1024x1024 .f32)), y ∈ pc.1.set :=
  View.cover_of_tiled [⟨wholeTile, p0⟩] S1024x1024.size (by rfl) y

set_option maxHeartbeats 1000000 in
/-- The body's triple: on whole staging buffers, the factors' at `a` and `b` and the output's at anything, it returns
    holding the factors' unchanged and the output's at `gramOut a b`. -/
theorem gram_body (c : Dev nD) (E : Set ℕ) (i : grid1.Coords) (arg2 : Memref sig .tc .vmem S1024x512 .bf16) (harg2 : arg2.IsWhole)
    (arg3 : Memref sig .tc .vmem S1024x512 .bf16) (harg3 : arg3.IsWhole)
    (arg4 : Memref sig .tc .vmem S1024x1024 .f32) (harg4 : arg4.IsWhole)
    (a b : Vec F S1024x512 .bf16) (K : PUnit → sProp 𝕄) :
    iprop(owns (c : Thread nD τ) arg2 fullShare a ∗ owns (c : Thread nD τ) arg3 fullShare b ∗ (∃ d, owns (c : Thread nD τ) arg4 fullShare d)
        ∗ (iprop(owns (c : Thread nD τ) arg2 fullShare a ∗ owns (c : Thread nD τ) arg3 fullShare b
            ∗ owns (c : Thread nD τ) arg4 fullShare (gramOut a b)) -∗ K ⟨⟩))
      ⊢ wp frame (wpE (defs₀ (F := F)) Variants.none c none) E (cc1__matmul_leaky_kernel i arg2 harg2 arg3 harg3 arg4 harg4) K := by
  simp only [cc1__matmul_leaky_kernel_eq_skeleton]; unfold cc1__matmul_leaky_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (gramOut_cover _)

end Bodies1

section Data

variable (V : (c : Dev nD) → (b : Ref sig .tc) → Buf (Elt F) ((c : Thread nD τ).loc b))

/-! ## The proof data of the two pipelines -/

/-- Pipeline 0 on core `c`: the arrays as the region finds them; after the body the input's buffer at its block and
    the output's at the block's scaled rows; the invariant the scoped buffers no window stages and the generator
    register; nothing owed; full shares. -/
def rowsDat (c : Dev nD) : Dat τ (Elt F) Unit ℕ (UR sig nD τ) ℕ cfg0 c where
  A w := V c (Pipeline.arrRef spec0 w)
  after w t := match w with
    | ⟨0, _⟩ => rowsBlk V c 0 t
    | ⟨1, _⟩ => rowsOut (rowsBlk V c 0 t)
  Φ _ := Pipeline.ΦA spec0 c
  q _ := fullShare
  owed _ := 0

theorem rowsDat_A (c : Dev nD) (w : Fin cfg0.W) : (rowsDat V c).A w = V c (Pipeline.arrRef spec0 w) := by
  dsimp only [rowsDat]
theorem rowsDat_after0 (c : Dev nD) (t : Fin cfg0.N) : (rowsDat V c).after 0 t = rowsBlk V c 0 t := by dsimp only [rowsDat]
theorem rowsDat_after1 (c : Dev nD) (t : Fin cfg0.N) : (rowsDat V c).after 1 t = rowsOut (rowsBlk V c 0 t) := by dsimp only [rowsDat]
theorem rowsDat_before0 (c : Dev nD) (t : Fin cfg0.N) (d) : (rowsDat V c).before 0 t d = rowsBlk V c 0 t :=
  rows_in_of V (rowsDat V c) (rowsDat_A V c 0) (rowsDat_after0 V c) t d

/-- The body obligation of pipeline 0 at every point: the input's buffer holds its block, so the body's triple applies;
    the invariant and the core's dues pass through unread. -/
theorem rows_obligation (c : Dev nD) : BodyObligation (rowsDat (F := F) V c) (defs₀ (F := F)) Variants.none () Set.univ := fun t => by
  rw [bigSep_W0, bigSep_W0]
  show iprop((rowsDat V c).Φ t.castSucc ∗ (rowsDat V c).owesAt () t.castSucc
      ∗ (∃ d, owns (c : Thread nD τ) (st0_0 t) fullShare ((rowsDat V c).before 0 t d))
      ∗ (∃ d, owns (c : Thread nD τ) (st0_1 t) fullShare ((rowsDat V c).before 1 t d)))
    ⊢ wp frame (wpE (defs₀ (F := F)) Variants.none c none) Set.univ (bodyAt0 t) (fun _ =>
      iprop((rowsDat V c).Φ t.succ ∗ (rowsDat V c).owesAt () t.succ
        ∗ owns (c : Thread nD τ) (st0_0 t) fullShare ((rowsDat V c).after 0 t)
        ∗ owns (c : Thread nD τ) (st0_1 t) fullShare ((rowsDat V c).after 1 t)))
  unfold bodyAt0
  simp only [rowsDat_before0]
  rw [show (rowsDat V c).Φ t.succ = (rowsDat V c).Φ t.castSucc from rfl,
    show (rowsDat V c).owesAt () t.succ = (rowsDat V c).owesAt () t.castSucc from rfl,
    rowsDat_after0, rowsDat_after1]
  iintro ⟨HΦ, Ho, ⟨%d0, H0⟩, ⟨%d1, H1⟩⟩
  iapply (rows_body c Set.univ _ _ _ _ _ (rowsBlk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- Pipeline 1 on core `c`: the arrays as the region finds them; after the body each factor's buffer at its block and
    the output's at their rectified products; the same invariant; nothing owed. The array of scaled rows is read by
    both input windows, so each holds HALF of it: window 0 the left half share, window 1 the right. -/
def gramDat (c : Dev nD) : Dat τ (Elt F) Unit ℕ (UR sig nD τ) ℕ cfg1 c where
  A w := V c (Pipeline.arrRef spec1 w)
  after w t := match w with
    | ⟨0, _⟩ => gramBlk V c 0 t
    | ⟨1, _⟩ => gramBlk V c 1 t
    | ⟨2, _⟩ => gramOut (gramBlk V c 0 t) (gramBlk V c 1 t)
  Φ _ := Pipeline.ΦA spec1 c
  q w := match w with
    | ⟨0, _⟩ => fullShare.left
    | ⟨1, _⟩ => fullShare.right
    | ⟨2, _⟩ => fullShare
  owed _ := 0

theorem gramDat_A (c : Dev nD) (w : Fin cfg1.W) : (gramDat V c).A w = V c (Pipeline.arrRef spec1 w) := by
  dsimp only [gramDat]
theorem gramDat_after0 (c : Dev nD) (t : Fin cfg1.N) : (gramDat V c).after 0 t = gramBlk V c 0 t := by dsimp only [gramDat]
theorem gramDat_after1 (c : Dev nD) (t : Fin cfg1.N) : (gramDat V c).after 1 t = gramBlk V c 1 t := by dsimp only [gramDat]
theorem gramDat_after2 (c : Dev nD) (t : Fin cfg1.N) :
    (gramDat V c).after 2 t = gramOut (gramBlk V c 0 t) (gramBlk V c 1 t) := by dsimp only [gramDat]
theorem gramDat_before0 (c : Dev nD) (t : Fin cfg1.N) (d) : (gramDat V c).before 0 t d = gramBlk V c 0 t :=
  gram_left_of V (gramDat V c) (gramDat_A V c 0) (gramDat_after0 V c) t d
theorem gramDat_before1 (c : Dev nD) (t : Fin cfg1.N) (d) : (gramDat V c).before 1 t d = gramBlk V c 1 t :=
  gram_right_of V (gramDat V c) (gramDat_A V c 1) (gramDat_after1 V c) t d

/-- The body obligation of pipeline 1 at every point. -/
theorem gram_obligation (c : Dev nD) : BodyObligation (gramDat (F := F) V c) (defs₀ (F := F)) Variants.none () Set.univ := fun t => by
  rw [bigSep_W1, bigSep_W1]
  show iprop((gramDat V c).Φ t.castSucc ∗ (gramDat V c).owesAt () t.castSucc
      ∗ (∃ d, owns (c : Thread nD τ) (st1_0 t) fullShare ((gramDat V c).before 0 t d))
      ∗ (∃ d, owns (c : Thread nD τ) (st1_1 t) fullShare ((gramDat V c).before 1 t d))
      ∗ (∃ d, owns (c : Thread nD τ) (st1_2 t) fullShare ((gramDat V c).before 2 t d)))
    ⊢ wp frame (wpE (defs₀ (F := F)) Variants.none c none) Set.univ (bodyAt1 t) (fun _ =>
      iprop((gramDat V c).Φ t.succ ∗ (gramDat V c).owesAt () t.succ
        ∗ owns (c : Thread nD τ) (st1_0 t) fullShare ((gramDat V c).after 0 t)
        ∗ owns (c : Thread nD τ) (st1_1 t) fullShare ((gramDat V c).after 1 t)
        ∗ owns (c : Thread nD τ) (st1_2 t) fullShare ((gramDat V c).after 2 t)))
  unfold bodyAt1
  simp only [gramDat_before0, gramDat_before1]
  rw [show (gramDat V c).Φ t.succ = (gramDat V c).Φ t.castSucc from rfl,
    show (gramDat V c).owesAt () t.succ = (gramDat V c).owesAt () t.castSucc from rfl,
    gramDat_after0, gramDat_after1, gramDat_after2]
  iintro ⟨HΦ, Ho, ⟨%d0, H0⟩, ⟨%d1, H1⟩, ⟨%d2, H2⟩⟩
  iapply (gram_body c Set.univ _ _ _ _ _ _ _ (gramBlk V c 0 t) (gramBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Data

end Cert.KernelIdeal.Fr

end
-- ==== Proof.FrameShare.lean ====
/-
  Dealing one array to two input windows of a pipeline and collecting it again (the second region of the idealized
  kernel program reads its array of scaled rows through both of its input windows).
-/
import proofs.«146047_j72791105733237_1_alg».proof.Proof.FrameBodies

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Share

variable (V : (c : Dev nD) → (b : Ref sig .tc) → Buf (Elt F) ((c : Thread nD τ).loc b))

/-! # One array under two input windows

Pipeline 1 reads the array of scaled rows through both of its input windows. The pipeline holds each window's array at
that window's share, so the array's buffer, held whole at the full share between regions, is dealt to the two windows
half and half on the way in and put together again on the way out. -/

/-- Pipeline 1's windows sit on two buffers: the scaled rows (twice) and the result. -/
theorem gram_arrRefs : Finset.univ.image (Pipeline.arrRef spec1) = ({main_v0, main_v1} : Finset (Ref sig .tc)) := by decide

/-- IN: the two buffers whole at the full share are the pipeline's arrays at the entry contents — the scaled rows split
    into their left half share for window 0 and right half share for window 1. -/
theorem gram_arrays_of_bufs (c : Dev nD) :
    (Pipeline.arrBufs (Ix := Unit) (Name := ℕ) (U := UR sig nD τ) (Lvl := ℕ) spec1 c (V c) : sProp 𝕄)
      ⊢ (gramDat V c).arrays (gramDat V c).A := by
  unfold Pipeline.arrBufs Dat.arrays
  rw [gram_arrRefs, bigSep_W1, bigSep_insert (by decide), bigSep_singleton,
    (arr_whole1 0).set_eq_univ, (arr_whole1 2).set_eq_univ]
  refine (show iprop((((c : Thread nD τ).loc main_v0) ↦{fullShare} V c main_v0) ∗ (((c : Thread nD τ).loc main_v1) ↦{fullShare} V c main_v1)) ⊢ _ from ?_)
  iintro ⟨H0, H1⟩
  ihave H0' := (pointsTo_share (PosShare.mem_left_op_right fullShare)).1 $$ H0
  icases H0' with ⟨Hl, Hr⟩
  isplitl [Hl]; · iexact Hl
  isplitl [Hr]; · iexact Hr
  iexact H1

/-- OUT: the pipeline's arrays, the two input windows' at the contents they entered with and the output's at `B`, are
    the two buffers whole at the full share again: the halves of the scaled rows rejoined, the result at `B`. -/
theorem gram_bufs_of_arrays (c : Dev nD) (G : (w : Fin cfg1.W) → Buf (Elt F) ((cfg1.win w).arr.view.loc (c : Thread nD τ)))
    (h0 : G 0 = V c main_v0) (h1 : G 1 = V c main_v0) :
    (gramDat V c).arrays G
      ⊢ (iprop((((c : Thread nD τ).loc main_v0) ↦{fullShare} V c main_v0) ∗ (((c : Thread nD τ).loc main_v1) ↦{fullShare} G 2) : sProp 𝕄)) := by
  unfold Dat.arrays
  rw [bigSep_W1, (arr_whole1 0).set_eq_univ, (arr_whole1 2).set_eq_univ, h0, h1]
  iintro ⟨Hl, Hr, H2⟩
  isplitl [Hl Hr]
  · iapply (pointsTo_share (PosShare.mem_left_op_right fullShare)).2
    isplitl [Hl]; · iexact Hl
    iexact Hr
  iexact H2

end Share

end Cert.KernelIdeal.Fr

end
-- ==== Proof.FrameRun.lean ====
/-
  The run of the idealized kernel program's @main as its two kernel regions in order, from the buffer contents at launch
  to those at the end, and the frame claim read off it.
-/
import proofs.«146047_j72791105733237_1_alg».proof.Proof.FrameShare

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: two regions, nothing between them

The contents of the TensorCore's unscoped buffers at the three boundaries: at launch; after region 0, which writes the
array of scaled rows; after region 1, which writes the result. -/

/-- At launch (region 0's entry). -/
abbrev W0 : Dev nD → Valuation τ sig (Elt F) := fun c b => m (c, b)
abbrev V0 : (c : Dev nD) → (b : Ref sig .tc) → Buf (Elt F) ((c : Thread nD τ).loc b) := fun c b => W0 m c b

/-- After region 0 (region 1's entry): its arrays at what the pipeline leaves, every other buffer as launched. -/
def W1 (c : Dev nD) : Valuation τ sig (Elt F) :=
  Pipeline.withArrays spec0 c (W0 m c) fun w => (rowsDat (V0 m) c).arrAt w cfg0.N
theorem W1_arr (c : Dev nD) (w : Fin cfg0.W) :
    W1 m c (Proc.devRef .tc (Pipeline.arrRef spec0 w)) = (rowsDat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem rows_exit_arr (c : Dev nD) (w : Fin cfg0.W) : (rowsDat (V0 m) c).arrAt w cfg0.N = V1 m c (Pipeline.arrRef spec0 w) :=
  (W1_arr m c w).symm
theorem rows_exit_rest (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After region 1 (the end): the result's buffer at what the pipeline leaves, every other buffer as region 1 found it. -/
def W2 (c : Dev nD) : Valuation τ sig (Elt F) :=
  Function.update (W1 m c) (Proc.devRef .tc main_v1) ((gramDat (V1 m) c).arrAt 2 cfg1.N)
abbrev V2 : (c : Dev nD) → (b : Ref sig .tc) → Buf (Elt F) ((c : Thread nD τ).loc b) := fun c b => W2 m c b
theorem W2_result (c : Dev nD) : V2 m c main_v1 = (gramDat (V1 m) c).arrAt 2 cfg1.N := by
  show W2 m c (Proc.devRef .tc main_v1) = _
  unfold W2; exact Function.update_self ..
theorem W2_of_ne (c : Dev nD) (b : Ref sig .tc) (hb : b ≠ main_v1) : V2 m c b = V1 m c b := by
  show W2 m c (Proc.devRef .tc b) = W1 m c (Proc.devRef .tc b)
  unfold W2; exact Function.update_of_ne (StableHlo.devRef_ne_of_ne hb) ..

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => rowsDat (V0 m) c
  | ⟨1, _⟩ => fun c => gramDat (V1 m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev Tₙ (c : Dev nD) : sProp 𝕄 := iprop(StableHlo.held (c : Thread nD τ) (Pipeline.ucRefs τ sig) (W2 m c) ∗ ∃ r, prngReg c r)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- REGION 0: entered from every unscoped buffer at the launch contents, left at `W1`. Its two arrays are distinct
    buffers, split out of the unscoped buffers at the full share and put back at the exit contents. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (rows_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (rows_exit_arr m c) (rows_exit_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1: entered from every unscoped buffer at `W1`, left at `W2`. Its two input windows sit on ONE buffer, the
    scaled rows: the buffer is dealt to them in halves at the entry and collected at the exit, unchanged (an input
    array is never written); the result's buffer goes in whole and comes back at what the write-backs leave. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (gram_obligation (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit : (StableHlo.held (c : Thread nD τ) (Pipeline.ucRefs τ sig) (W1 m c) : sProp 𝕄)
        ⊢ iprop((pdats m 1 c).arrays ((pdats m 1 c).arrAt · 0) ∗ Pipeline.unscopedRest spec1 c (V1 m c)) := by
      rw [← Pipeline.unscopedBufs_held c (W1 m c), Pipeline.unscopedBufs_split₀ cfgs 1 winFacts₀1.arr_unscoped c (V1 m c)]
      exact sep_mono (gram_arrays_of_bufs (V1 m) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (V1 m c))
        ⊢ (StableHlo.held (c : Thread nD τ) (Pipeline.ucRefs τ sig) (W2 m c) : sProp 𝕄) := by
      have hs₂ : (unscopedBufs c (V2 m c) : sProp 𝕄)
          = iprop(Pipeline.arrBufs spec1 c (V2 m c) ∗ Pipeline.unscopedRest spec1 c (V2 m c)) :=
        Pipeline.unscopedBufs_split₀ cfgs 1 winFacts₀1.arr_unscoped c (V2 m c)
      rw [← Pipeline.unscopedBufs_held c (W2 m c), hs₂]
      refine BI.sep_mono ?_ ?_
      · refine (gram_bufs_of_arrays (V1 m) c _ ((gramDat (V1 m) c).arrAt_in 0 rfl _) ((gramDat (V1 m) c).arrAt_in 1 rfl _)).trans ?_
        unfold Pipeline.arrBufs
        rw [gram_arrRefs, bigSep_insert (by decide), bigSep_singleton, W2_of_ne m c main_v0 (by decide), W2_result]
        exact .rfl
      · rw [unscopedRest1_eq, unscopedRest1_eq, W2_of_ne m c main_arg0 (by decide), W2_of_ne m c main_arg1 (by decide)]
        exact BI.Entails.refl _
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m), .region (reg1 m) ]

theorem main_run (c : Dev nD) : main (F := F) c = Pipeline.Seg.run (segs m) := (main_chain c).trans (by chain_rfl)

set_option backward.isDefEq.respectTransparency.types false in
/-- THE RUN: from any memory with zero counters, every weakly fair execution of @main on the TensorCores terminates,
    nothing faulting, and in every final state each unscoped buffer of the core holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- The frame: every argument array ends as launched. Neither region writes one: region 0 reads the second through an
    input window and bypasses the first, region 1 bypasses both. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans ((W2_of_ne m c main_arg0 (by decide)).trans (W1_of_ne m c main_arg0 (by decide))),
     (h c _ (mem_uc main_arg1 (by decide))).trans ((W2_of_ne m c main_arg1 (by decide)).trans
       ((W1_arr m c 0).trans (((rowsDat (V0 m) c).arrAt_in 0 rfl _).trans (rowsDat_A (V0 m) c 0))))⟩) (run_main m ρ)

end Cert.KernelIdeal.Fr

end
-- ==== Proof.Spec.lean ====
/-
  The function both programs compute, on the extended reals.

  A row `p` of the 8192 × 512 input is divided, entry by entry, by `max (√(0 + Σ_k p_k²)) ε` (`ε` the binary
  value of the word 0x2B8CBCCC): the row scaled to unit Euclidean length, the divisor clamped away from zero.
  The result at `(i, j)` is the inner product `s = Σ_k u_{i,k} · u_{j,k}` of two scaled rows passed through the
  leaky rectifier: `s` where `s ≥ 0`, else `c · s` (`c` the binary value of the word 0x3C23D70A).
  Every operation is the exact one on `EReal`; the two literals stay words and are never evaluated.
-/
import Idealize.ShloMosaic.PureOps.Ideal
import Idealize.ShloMosaic.Lib.ValueIdx

noncomputable section

namespace Cert.Spec

open Idealize.ShloMosaic Idealize.ShloMosaic.ValueIdx

/-- The 8192 × 512 input's index type, the scaled rows' too. -/
abbrev SIn : Shape := ⟨2, ![8192, 512]⟩
/-- The 8192 × 8192 result's index type. -/
abbrev SOut : Shape := ⟨2, ![8192, 8192]⟩

/-- Entry `k` of a row divided by the row's Euclidean norm, the norm clamped below by `ε`. -/
def unitEntry (row : Fin 512 → EReal) (k : Fin 512) : EReal :=
  Ideal.div (row k)
    (max (Ideal.sqrt (Ideal.ofBits .f32 0x00000000#32 + ∑ k' : Fin 512, row k' * row k')) (Ideal.ofBits .f32 0x2B8CBCCC#32))

/-- The leaky rectifier: the identity on `s ≥ 0`, the slope `c` below. -/
def leaky (s : EReal) : EReal :=
  Scalar.select (FloatOps.cmpf (F := Ideal) (φ := .f32) .oge s (Ideal.ofBits .f32 0x00000000#32)) s
    (Ideal.ofBits .f32 0x3C23D70A#32 * s)

/-- Every row of `x` scaled to unit length. -/
def unitRows (x : SIn.Idx → EReal) : SIn.Idx → EReal :=
  fun j => unitEntry (fun k' => x (ix2 (j 0) k')) (j 1)

/-- The pairwise inner products of the rows `u`, each through the leaky rectifier. -/
def gram (u : SIn.Idx → EReal) : SOut.Idx → EReal :=
  fun i => leaky (∑ k : Fin 512, u (ix2 (i 0) k) * u (ix2 (i 1) k))

/-- The whole result as one function of the input array. -/
def result (x : SIn.Idx → EReal) : SOut.Idx → EReal := gram (unitRows x)

end Cert.Spec

end
-- ==== Proof.PayRows.lean ====
/-
  The first kernel's payload, read one entry at a time: entry `(r, k)` of a 1024 × 512 block is the block's entry
  divided by `max (√(0 + Σ_k' p_{r,k'}²)) ε`, the specification's scaled row entry of row `r` of the block.

  The payload squares the block entrywise, sums each row along the lanes, views the column of row sums as a
  1024 × 1 array, takes the square root and the maximum with `ε` there, spreads that column back over the 512 lanes and
  divides. Each change of layout reads one entry of its operand; the lane sum is the finite sum over the row's coordinates.
-/
import proofs.«146047_j72791105733237_1_alg».proof.Proof.Spec
import proofs.«146047_j72791105733237_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.Bridge

open Idealize.ShloMosaic Idealize.ShloMosaic.ValueIdx Cert.KernelIdeal

/-- A column of 1024 values viewed as a 1024 × 1 array reads, at `(r, c)`, the column's entry `r`. -/
theorem column_cast_apply {α : Type} (v : S1024.Idx → α) (h : S1024.ShapeCasts S1024x1) (r : Fin 1024) (c : Fin 1) :
    shapeCast S1024x1 v h (ix2 r c) = v (ix1 r) := by
  refine shapeCast_apply v h (ix2 r c) (ix1 r) ?_
  rw [Shape.rowMajor_val_one, Shape.rowMajor_val_two]
  show r.val = r.val * 1 + c.val
  have := c.isLt
  omega

/-- A 1024 × 1 column spread over 512 lanes reads, at `(r, k)`, the column's entry `(r, 0)`. -/
theorem column_spread_apply {α : Type} (v : S1024x1.Idx → α) (h : S1024x1.Broadcasts S1024x512) (r : Fin 1024) (k : Fin 512) :
    broadcastTo S1024x512 v h (ix2 r k) = v (ix2 r (0 : Fin 1)) := by
  refine broadcastTo_apply v h (ix2 r k) (ix2 r (0 : Fin 1)) fun ax => ?_
  match ax with
  | ⟨0, _⟩ =>
    show r.val = if (1024 : Nat) = 1 then 0 else r.val
    rw [if_neg (by decide)]
  | ⟨1, _⟩ =>
    show (0 : Nat) = if (1 : Nat) = 1 then 0 else k.val
    rw [if_pos rfl]

/-- The lane sum of a 1024 × 512 block of extended reals, read at row `r`: the sum of the row's 512 entries. -/
theorem row_sum_apply (v : FVec Ideal S1024x512 .f32) (h : S1024x512.Reduces [1] S1024) (hφ : FKind.Formats .f32)
    (hacc : (0x00000000#32 : BitVec 32) = 0x00000000#32) (r : Fin 1024) :
    multiReduction (F := Ideal) .add [1] S1024 v 0x00000000#32 h hφ hacc (ix1 r) = ∑ k : Fin 512, v (ix2 r k) := by
  refine (Ideal.multiReduction_add_single v 0x00000000#32 h hφ hacc (ix1 r)).trans ?_
  refine Finset.sum_congr rfl fun k _ => ?_
  exact congrArg v (funext fun a => Fin.ext (by match a with | ⟨0, _⟩ => rfl | ⟨1, _⟩ => rfl))

/-- The first kernel's payload at `(r, k)` is the scaled entry `k` of row `r` of the block. -/
theorem pay_rows (x0 : Vec Ideal S1024x512 .f32) (r : Fin 1024) (k : Fin 512) :
    Gen.k0_pay1 (F := Ideal) x0 (ix2 r k) = Cert.Spec.unitEntry (fun k' => x0 (ix2 r k')) k := by
  unfold Gen.k0_pay1 Cert.Spec.unitEntry
  rw [truncf_apply, divf_apply, column_spread_apply, maximumf_apply]
  show Ideal.div (x0 (ix2 r k)) (max (Ideal.sqrt (shapeCast S1024x1 _ _ (ix2 r (0 : Fin 1)))) (Ideal.ofBits .f32 0x2B8CBCCC#32)) = _
  rw [column_cast_apply]
  refine congrArg (fun s => Ideal.div (x0 (ix2 r k)) (max (Ideal.sqrt s) (Ideal.ofBits .f32 0x2B8CBCCC#32))) ?_
  refine (row_sum_apply _ _ _ _ r).trans ?_
  rw [Ideal.ofBits_zero_f32, zero_add]
  rfl

end Cert.Bridge

end
-- ==== Proof.PayGram.lean ====
/-
  The second kernel's payload, read one entry at a time: entry `(i, j)` of the 1024 × 1024 block it writes is the
  leaky rectifier of the inner product of row `i` of its first operand block with row `j` of its second.

  The payload transposes the second block, contracts the first block's lanes against the transposed block's rows
  into a zero accumulator, and selects between the product and its multiple by the slope according to the
  product's sign. At the extended reals the contraction at `(i, j)` is the finite sum, over the one contracted
  coordinate `k`, of the first block at `(i, k)` times the transposed block at `(k, j)`, the second block at `(j, k)`.
-/
import proofs.«146047_j72791105733237_1_alg».proof.Proof.Spec
import proofs.«146047_j72791105733237_1_alg».proof.Proof.Gen.KernelIdeal.Skeleton
import Idealize.ShloMosaic.Lib.Pipeline.Value
import Idealize.ShloMosaic.Lib.ValueLayout
import Idealize.ShloMosaic.Lib.ValueIdx
import Idealize.ShloMosaic.PureOps.Ideal.Laws

noncomputable section

namespace Cert.Bridge

open Idealize.ShloMosaic Idealize.ShloMosaic.ValueIdx Cert.KernelIdeal

/-- The contraction's dimension numbers: lanes of the left block against rows of the transposed right block. -/
abbrev gramDims : DotDims S1024x512 S512x1024 S1024x1024 := dot_S1024x512_S512x1024_S1024x1024_1_0_0_1_n_n

/-- The left operand's index at output `(i, j)`: row `i` … -/
theorem gram_lhs_0 (o : S1024x1024.Idx) (q : gramDims.contr.Idx) : (gramDims.lhsIdx o q 0).val = (o 0).val := by
  unfold DotDims.lhsIdx
  rw [dif_neg (show ¬(0 : Fin S1024x512.rank) ∈ gramDims.lhsBatch by decide),
    dif_pos (show (0 : Fin S1024x512.rank) ∈ gramDims.lhsNonContracting by decide)]
  rfl
/-- … and the contracted coordinate as its lane. -/
theorem gram_lhs_1 (o : S1024x1024.Idx) (q : gramDims.contr.Idx) :
    (gramDims.lhsIdx o q 1).val = (q ⟨0, by decide⟩).val :=
  gramDims.lhsIdx_val_of_single rfl o q
/-- The right operand's index at output `(i, j)`: the contracted coordinate as its row … -/
theorem gram_rhs_0 (o : S1024x1024.Idx) (q : gramDims.contr.Idx) :
    (gramDims.rhsIdx o q 0).val = (q ⟨0, by decide⟩).val :=
  gramDims.rhsIdx_val_of_single rfl o q
/-- … and column `j`. -/
theorem gram_rhs_1 (o : S1024x1024.Idx) (q : gramDims.contr.Idx) : (gramDims.rhsIdx o q 1).val = (o 1).val := by
  unfold DotDims.rhsIdx
  rw [dif_neg (show ¬(1 : Fin S512x1024.rank) ∈ gramDims.rhsBatch by decide),
    dif_pos (show (1 : Fin S512x1024.rank) ∈ gramDims.rhsNonContracting by decide)]
  rfl

/-- The contraction into the zero accumulator, read at `(i, j)`: the inner product of row `i` of `a` with row `j` of
    `b`. -/
theorem gram_sum (a b : FVec Ideal S1024x512 .bf16) (h1 h2 : S1024x512.ShapeCasts S1024x512)
    (ht : S1024x512.Transposes [1, 0] S512x1024) (i j : Fin 1024) :
    matmul gramDims none (shapeCast S1024x512 a h1) (transpose S512x1024 [1, 0] (shapeCast S1024x512 b h2) ht)
        (constant (F := Ideal) S1024x1024 .f32 0x00000000#32) (ix2 i j)
      = ∑ k : Fin 512, a (ix2 i k) * b (ix2 j k) := by
  rw [shapeCast_self, shapeCast_self]
  simp only [matmul]
  rw [Ideal.matmul_constant_zero_apply, ← Equiv.sum_comp (contrEquiv1 gramDims 512 rfl rfl).symm]
  refine Finset.sum_congr rfl fun k _ => ?_
  have hk := contrEquiv1_symm_val gramDims 512 rfl rfl k
  have el : gramDims.lhsIdx (ix2 i j) ((contrEquiv1 gramDims 512 rfl rfl).symm k) = ix2 i k :=
    funext fun c => Fin.ext (by
      match c with
      | ⟨0, _⟩ => exact gram_lhs_0 _ _
      | ⟨1, _⟩ => exact (gram_lhs_1 _ _).trans hk)
  have er : gramDims.rhsIdx (ix2 i j) ((contrEquiv1 gramDims 512 rfl rfl).symm k) = ix2 k j :=
    funext fun c => Fin.ext (by
      match c with
      | ⟨0, _⟩ => exact (gram_rhs_0 _ _).trans hk
      | ⟨1, _⟩ => exact gram_rhs_1 _ _)
  rw [el, er, transpose_ix2_apply]

/-- The second kernel's payload at `(i, j)` is the leaky rectifier of the inner product of row `i` of `a` with row
    `j` of `b`. -/
theorem pay_gram (a b : Vec Ideal S1024x512 .bf16) (i j : Fin 1024) :
    Gen.k1_pay1 (F := Ideal) a b (ix2 i j) = Cert.Spec.leaky (∑ k : Fin 512, a (ix2 i k) * b (ix2 j k)) := by
  refine Eq.trans ?_ (congrArg Cert.Spec.leaky (gram_sum a b Gen.shapeCasts_S1024x512_S1024x512
    Gen.shapeCasts_S1024x512_S1024x512 Gen.transposes_S1024x512_p1_0_S512x1024 i j))
  rfl

end Cert.Bridge

end
-- ==== Proof.Blocks.lean ====
/-
  From blocks to arrays: what the two pipelines leave in their output arrays, as functions of their input arrays.

  Pipeline 0 visits the 8 blocks of 1024 rows of the 8192 × 512 input in order; at block `t` it writes back the scaled
  rows of that block, which are rows `1024 t … 1024 t + 1023` of the array of scaled rows. The 8 blocks cover the array,
  so it ends holding every row scaled. Pipeline 1 visits the 8 × 8 pairs `(a, b)` of such blocks; at a pair it writes
  back the 1024 × 1024 tile of rectified inner products of rows of block `a` with rows of block `b`, which is tile
  `(a, b)` of the array of all rectified pairwise inner products. The 64 tiles cover the 8192 × 8192 array.
-/
import proofs.«146047_j72791105733237_1_alg».proof.Proof.Spec
import proofs.«146047_j72791105733237_1_alg».proof.Proof.FrameBodies
import proofs.«146047_j72791105733237_1_alg».proof.Proof.PayRows
import proofs.«146047_j72791105733237_1_alg».proof.Proof.PayGram
import Idealize.ShloMosaic.Lib.Pipeline.Value

noncomputable section

namespace Cert.Bridge

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a rank-2 rectangle are the constant zero function. -/
theorem origin2 : (![0, 0] : Fin 2 → Nat) = fun _ => 0 := funext fun a => by fin_cases a <;> rfl

/-! ## Pipeline 0: every row scaled -/

/-- The index maps of pipeline 0 at each of its 8 points `t`: both windows are at block `(t, 0)`. -/
theorem rows_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- One entry of one block: if the 1024 × 512 block `x0` is rows `1024 T …` of the array `X`, the payload of `x0` at
    `j` is the array of scaled rows of `X` at the index `i` that sits `1024 T` rows below `j`. -/
theorem rows_point (X : S8192x512.Idx → EReal) (x0 : Vec Ideal S1024x512 .f32) (T : Nat)
    (hx : ∀ (r : Fin 1024) (k : Fin 512) (p : Fin 8192), p.val = T * 1024 + r.val → x0 (ix2 r k) = X (ix2 p k))
    (j : S1024x512.Idx) (i : S8192x512.Idx) (h0 : (i 0).val = T * 1024 + (j 0).val) (h1 : (i 1).val = (j 1).val) :
    Gen.k0_pay1 (F := Ideal) x0 j = Cert.Spec.unitRows X i := by
  obtain ⟨r, k, rfl⟩ : ∃ (r : Fin 1024) (k : Fin 512), j = ix2 r k := ⟨j 0, j 1, eq_ix2 j⟩
  obtain ⟨p, q, rfl⟩ : ∃ (p : Fin 8192) (q : Fin 512), i = ix2 p q := ⟨i 0, i 1, eq_ix2 i⟩
  have hq : q = k := Fin.ext h1
  subst hq
  rw [pay_rows]
  exact congrArg (fun f => Cert.Spec.unitEntry f q) (funext fun k' => hx r k' p h0)

/-- What point `t` writes back is block `t` of the array of scaled rows of the input as the region finds it. -/
theorem rows_flushed (c : Dev nD) (t : Fin cfg0.N) :
    (rowsDat (F := Ideal) V c).flushed 1 t
      = ((cfg0.win 1).blk t).view.read (Elt Ideal) (Cert.Spec.unitRows (V c main_arg1)) := by
  show (cfg0.win 1).cut (grid0.coords t) ((rowsDat V c).after 1 t) = _
  rw [rowsDat_after1]
  unfold rowsOut
  rw [View.canon_unit_zero origin2]
  simp only [View.ld_unit_zero (S := S1024x512) origin2]
  obtain ⟨e0, e1, e2, e3⟩ := rows_index t
  funext j
  show Gen.k0_pay1 (rowsBlk V c 0 t) j = Cert.Spec.unitRows (V c main_arg1) (((cfg0.win 1).blk t).view.emb j)
  refine rows_point (V c main_arg1) (rowsBlk V c 0 t) t.val ?_ j _ ?_ ?_
  · intro r k p hp
    show V c main_arg1 (((cfg0.win 0).blk t).view.emb (ix2 r k)) = _
    refine congrArg (V c main_arg1) (funext fun a => Fin.ext ?_)
    match a with
    | ⟨0, _⟩ => show win0_0.index t (0 : Fin 2) * 1024 + 1 * r.val = p.val; rw [e0, hp]; omega
    | ⟨1, _⟩ => show win0_0.index t (1 : Fin 2) * 512 + 1 * k.val = k.val; rw [e1]; omega
  · show win0_1.index t (0 : Fin 2) * 1024 + 1 * (j 0).val = t.val * 1024 + (j 0).val; rw [e2]; omega
  · show win0_1.index t (1 : Fin 2) * 512 + 1 * (j 1).val = (j 1).val; rw [e3]; omega

/-- An index of the array is in point `t`'s block iff each coordinate is in the block's range on its axis. -/
theorem rows_mem (t : Fin cfg0.N) (i : S8192x512.Idx) :
    i ∈ ((cfg0.win 1).blk t).view.set ↔ ∀ a : Fin 2, win0_1.index t a * S1024x512.size a ≤ (i a).val
      ∧ (i a).val < win0_1.index t a * S1024x512.size a + S1024x512.size a := by
  show i ∈ ((View.whole main_v0).slice (win0_1.rect t)).set ↔ _
  rw [View.set_slice_whole, Rect.mem_set_unit]
  exact Iff.rfl

/-- Row `r` of the array is in the block of point `r / 1024`. -/
theorem rows_cover (i : S8192x512.Idx) :
    ∃ t : Fin cfg0.N, (cfg0.win 1).flush t = true ∧ i ∈ ((cfg0.win 1).blk t).view.set := by
  have hi0 : (i 0).val < 8192 := (i 0).isLt
  have hi1 : (i 1).val < 512 := (i 1).isLt
  have hN : cfg0.N = 8 := N_0
  have ht : (i 0).val / 1024 < cfg0.N := by rw [hN]; omega
  obtain ⟨e0, e1, e2, e3⟩ := rows_index ⟨(i 0).val / 1024, ht⟩
  refine ⟨⟨(i 0).val / 1024, ht⟩, flush0_1 _, ?_⟩
  rw [rows_mem]
  intro a
  match a with
  | ⟨0, _⟩ =>
    show win0_1.index ⟨(i 0).val / 1024, ht⟩ (0 : Fin 2) * 1024 ≤ (i 0).val
      ∧ (i 0).val < win0_1.index ⟨(i 0).val / 1024, ht⟩ (0 : Fin 2) * 1024 + 1024
    rw [e2]; show (i 0).val / 1024 * 1024 ≤ (i 0).val ∧ (i 0).val < (i 0).val / 1024 * 1024 + 1024; omega
  | ⟨1, _⟩ =>
    show win0_1.index ⟨(i 0).val / 1024, ht⟩ (1 : Fin 2) * 512 ≤ (i 1).val
      ∧ (i 1).val < win0_1.index ⟨(i 0).val / 1024, ht⟩ (1 : Fin 2) * 512 + 512
    rw [e3]; omega

/-- After pipeline 0 its output array holds every row of the input scaled. -/
theorem rows_final (c : Dev nD) :
    (rowsDat (F := Ideal) V c).arrAt 1 cfg0.N = Cert.Spec.unitRows (V c main_arg1) :=
  (rowsDat (F := Ideal) V c).arrAt_eq_of_cover 1 (Cert.Spec.unitRows (V c main_arg1))
    (fun t _ => rows_flushed V c t) rows_cover

/-! ## Pipeline 1: every pair of scaled rows -/

/-- The index maps of pipeline 1 at each of its 64 points: point `t` is the pair `(t / 8, t % 8)`; window 0 is at
    block `(t / 8, 0)` of the scaled rows, window 1 at block `(t % 8, 0)`, the output at tile `(t / 8, t % 8)`. -/
theorem gram_index : ∀ t : Fin cfg1.N, win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = t.val % 8 :=
  (by decide +kernel : ∀ t : Fin grid1.N, _)

/-- One entry of one tile: if the blocks `a` and `b` are rows `1024 A …` and rows `1024 B …` of the array `U`, the
    payload of `a` and `b` at `j` is the array of rectified pairwise inner products of `U`'s rows at the index `i`
    that sits `1024 A` rows and `1024 B` columns beyond `j`. -/
theorem gram_point (U : S8192x512.Idx → EReal) (a b : Vec Ideal S1024x512 .bf16) (A B : Nat)
    (ha : ∀ (r : Fin 1024) (k : Fin 512) (p : Fin 8192), p.val = A * 1024 + r.val → a (ix2 r k) = U (ix2 p k))
    (hb : ∀ (r : Fin 1024) (k : Fin 512) (p : Fin 8192), p.val = B * 1024 + r.val → b (ix2 r k) = U (ix2 p k))
    (j : S1024x1024.Idx) (i : S8192x8192.Idx) (h0 : (i 0).val = A * 1024 + (j 0).val)
    (h1 : (i 1).val = B * 1024 + (j 1).val) :
    Gen.k1_pay1 (F := Ideal) a b j = Cert.Spec.gram U i := by
  obtain ⟨r, s, rfl⟩ : ∃ (r s : Fin 1024), j = ix2 r s := ⟨j 0, j 1, eq_ix2 j⟩
  obtain ⟨p, q, rfl⟩ : ∃ (p q : Fin 8192), i = ix2 p q := ⟨i 0, i 1, eq_ix2 i⟩
  rw [pay_gram]
  show Cert.Spec.leaky _ = Cert.Spec.leaky (∑ k : Fin 512, U (ix2 p k) * U (ix2 q k))
  refine congrArg Cert.Spec.leaky (Finset.sum_congr rfl fun k _ => ?_)
  rw [ha r k p h0, hb s k q h1]

/-- What point `t` writes back is tile `t` of the array of rectified pairwise inner products of the scaled rows as the
    region finds them. -/
theorem gram_flushed (c : Dev nD) (t : Fin cfg1.N) :
    (gramDat (F := Ideal) V c).flushed 2 t
      = ((cfg1.win 2).blk t).view.read (Elt Ideal) (Cert.Spec.gram (V c main_v0)) := by
  show (cfg1.win 2).cut (grid1.coords t) ((gramDat V c).after 2 t) = _
  rw [gramDat_after2]
  unfold gramOut
  rw [View.canon_unit_zero origin2]
  simp only [View.ld_unit_zero (S := S1024x512) origin2]
  obtain ⟨e0, e1, e2, e3, e4, e5⟩ := gram_index t
  funext j
  show Gen.k1_pay1 (gramBlk V c 0 t) (gramBlk V c 1 t) j
    = Cert.Spec.gram (V c main_v0) (((cfg1.win 2).blk t).view.emb j)
  refine gram_point (V c main_v0) (gramBlk V c 0 t) (gramBlk V c 1 t) (t.val / 8) (t.val % 8) ?_ ?_ j _ ?_ ?_
  · intro r k p hp
    show V c main_v0 (((cfg1.win 0).blk t).view.emb (ix2 r k)) = _
    refine congrArg (V c main_v0) (funext fun x => Fin.ext ?_)
    match x with
    | ⟨0, _⟩ => show win1_0.index t (0 : Fin 2) * 1024 + 1 * r.val = p.val; rw [e0, hp]; omega
    | ⟨1, _⟩ => show win1_0.index t (1 : Fin 2) * 512 + 1 * k.val = k.val; rw [e1]; omega
  · intro r k p hp
    show V c main_v0 (((cfg1.win 1).blk t).view.emb (ix2 r k)) = _
    refine congrArg (V c main_v0) (funext fun x => Fin.ext ?_)
    match x with
    | ⟨0, _⟩ => show win1_1.index t (0 : Fin 2) * 1024 + 1 * r.val = p.val; rw [e2, hp]; omega
    | ⟨1, _⟩ => show win1_1.index t (1 : Fin 2) * 512 + 1 * k.val = k.val; rw [e3]; omega
  · show win1_2.index t (0 : Fin 2) * 1024 + 1 * (j 0).val = t.val / 8 * 1024 + (j 0).val; rw [e4]; omega
  · show win1_2.index t (1 : Fin 2) * 1024 + 1 * (j 1).val = t.val % 8 * 1024 + (j 1).val; rw [e5]; omega

/-- An index of the array is in point `t`'s tile iff each coordinate is in the tile's range on its axis. -/
theorem gram_mem (t : Fin cfg1.N) (i : S8192x8192.Idx) :
    i ∈ ((cfg1.win 2).blk t).view.set ↔ ∀ a : Fin 2, win1_2.index t a * S1024x1024.size a ≤ (i a).val
      ∧ (i a).val < win1_2.index t a * S1024x1024.size a + S1024x1024.size a := by
  show i ∈ ((View.whole main_v1).slice (win1_2.rect t)).set ↔ _
  rw [View.set_slice_whole, Rect.mem_set_unit]
  exact Iff.rfl

/-- Entry `(r, s)` of the array is in the tile of the point `8 (r / 1024) + s / 1024`. -/
theorem gram_cover (i : S8192x8192.Idx) :
    ∃ t : Fin cfg1.N, (cfg1.win 2).flush t = true ∧ i ∈ ((cfg1.win 2).blk t).view.set := by
  have hi0 : (i 0).val < 8192 := (i 0).isLt
  have hi1 : (i 1).val < 8192 := (i 1).isLt
  have hN : cfg1.N = 64 := N_1
  have ht : (i 0).val / 1024 * 8 + (i 1).val / 1024 < cfg1.N := by rw [hN]; omega
  obtain ⟨e0, e1, e2, e3, e4, e5⟩ := gram_index ⟨(i 0).val / 1024 * 8 + (i 1).val / 1024, ht⟩
  refine ⟨⟨(i 0).val / 1024 * 8 + (i 1).val / 1024, ht⟩, flush1_2 _, ?_⟩
  rw [gram_mem]
  intro a
  match a with
  | ⟨0, _⟩ =>
    show win1_2.index ⟨(i 0).val / 1024 * 8 + (i 1).val / 1024, ht⟩ (0 : Fin 2) * 1024 ≤ (i 0).val
      ∧ (i 0).val < win1_2.index ⟨(i 0).val / 1024 * 8 + (i 1).val / 1024, ht⟩ (0 : Fin 2) * 1024 + 1024
    rw [e4]
    show ((i 0).val / 1024 * 8 + (i 1).val / 1024) / 8 * 1024 ≤ (i 0).val
      ∧ (i 0).val < ((i 0).val / 1024 * 8 + (i 1).val / 1024) / 8 * 1024 + 1024
    omega
  | ⟨1, _⟩ =>
    show win1_2.index ⟨(i 0).val / 1024 * 8 + (i 1).val / 1024, ht⟩ (1 : Fin 2) * 1024 ≤ (i 1).val
      ∧ (i 1).val < win1_2.index ⟨(i 0).val / 1024 * 8 + (i 1).val / 1024, ht⟩ (1 : Fin 2) * 1024 + 1024
    rw [e5]
    show ((i 0).val / 1024 * 8 + (i 1).val / 1024) % 8 * 1024 ≤ (i 1).val
      ∧ (i 1).val < ((i 0).val / 1024 * 8 + (i 1).val / 1024) % 8 * 1024 + 1024
    omega

/-- After pipeline 1 its output array holds the rectified inner product of every pair of scaled rows. -/
theorem gram_final (c : Dev nD) :
    (gramDat (F := Ideal) V c).arrAt 2 cfg1.N = Cert.Spec.gram (V c main_v0) :=
  (gramDat (F := Ideal) V c).arrAt_eq_of_cover 2 (Cert.Spec.gram (V c main_v0))
    (fun t _ => gram_flushed V c t) gram_cover

end Cert.Bridge

end
-- ==== Proof.KernelValue.lean ====
/-
  What the idealized kernel program leaves in its result buffer, as one function of the input array.

  The run ends with every unscoped buffer at the last boundary's contents. The result's buffer there is what the second
  region's write-backs leave: the rectified inner products of the rows of the array the second region was entered with.
  That array is what the first region's write-backs leave: the input's rows scaled to unit length. Composed, the result
  is the specification's function of the input.
-/
import proofs.«146047_j72791105733237_1_alg».proof.Proof.FrameRun
import proofs.«146047_j72791105733237_1_alg».proof.Proof.Blocks

noncomputable section

namespace Cert.Bridge

open Cert.KernelIdeal Cert.KernelIdeal.Gen Cert.KernelIdeal.Fr
open Idealize.ShloMosaic Idealize.ShloMosaic.TcCoe Idealize.SL.Sem

/-- The array of scaled rows the second region is entered with. -/
theorem scaled_rows (m : (ℓ : Loc nD τ sig) → Buf (Elt Ideal) ℓ) (c : Dev nD) :
    V1 m c main_v0 = Cert.Spec.unitRows (m ((c.tc : Thread nD τ).loc main_arg1)) :=
  (W1_arr m c 1).trans (rows_final (V0 m) c)

/-- The result's buffer at the end. -/
theorem result_buffer (m : (ℓ : Loc nD τ sig) → Buf (Elt Ideal) ℓ) (c : Dev nD) :
    V2 m c main_v1 = Cert.Spec.result (m ((c.tc : Thread nD τ).loc main_arg1)) :=
  (W2_result m c).trans ((gram_final (V1 m) c).trans (congrArg Cert.Spec.gram (scaled_rows m c)))

/-- The idealized kernel program's run: it terminates, nothing faulting, with the result's buffer at the specification's
    function of the second argument and both arguments as launched. -/
theorem kernel_result (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1) = Cert.Spec.result (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v1 (by decide))).trans (result_buffer m c),
     (h c _ (mem_uc main_arg0 (by decide))).trans ((W2_of_ne m c main_arg0 (by decide)).trans (W1_of_ne m c main_arg0 (by decide))),
     (h c _ (mem_uc main_arg1 (by decide))).trans ((W2_of_ne m c main_arg1 (by decide)).trans
       ((W1_arr m c 0).trans (((rowsDat (V0 m) c).arrAt_in 0 rfl _).trans (rowsDat_A (V0 m) c 0))))⟩) (run_main m ρ)

end Cert.Bridge

end
-- ==== Proof.RefValue.lean ====
/-
  The reference program's result, read one entry at a time, is the specification's function of the input array.

  The reference divides every entry of the 8192 × 512 input by its row's clamped Euclidean norm, takes all pairwise
  inner products of the scaled rows, and passes each through the leaky rectifier. Read at an index, every operation
  of the reference is one exact operation on the extended reals, in the order the specification writes them.
-/
import proofs.«146047_j72791105733237_1_alg».proof.Proof.Spec
import proofs.«146047_j72791105733237_1_alg».proof.Proof.Gen.ReferenceIdeal.Read

noncomputable section

namespace Cert.Bridge

open Idealize.ShloMosaic Idealize.ShloMosaic.ValueIdx Cert.ReferenceIdeal Cert.ReferenceIdeal.Read

/-- The reference's scaled rows: entry `(p, q)` is the input's entry divided by row `p`'s clamped norm. -/
theorem ref_unit (x1 : (⟨S8192x512, .f32⟩ : BufTy).Contents (Elt Ideal)) (p : Fin 8192) (q : Fin 512) :
    val_main_v7 (F := Ideal) x1 (ix2 p q) = Cert.Spec.unitEntry (fun k' => x1 (ix2 p k')) q := by
  have e1 : ∀ k : Fin 512, idx_main_v1 (idx_main_v2 (idx_main_v6 (ix2 p q))) k = ix2 p k := fun k =>
    funext fun a => Fin.ext (by match a with | ⟨0, _⟩ => rfl | ⟨1, _⟩ => rfl)
  rw [val_main_v7_apply, val_main_v6_apply, val_main_v5_apply, val_main_v3_apply, val_main_v2_apply,
    val_main_v1_apply, val_main_v4_apply, val_main_cst_0_apply, val_main_cst_apply]
  simp only [e1, val_main_v0_apply, Ideal.hostDivf_def, Ideal.maximumf_def, Ideal.hostUnary_sqrt_def,
    Ideal.mulf_def, Ideal.ofBits_def]
  rfl

/-- The reference's result is the specification's function of the input. -/
theorem ref_result (x1 : (⟨S8192x512, .f32⟩ : BufTy).Contents (Elt Ideal)) :
    val_main_v13 (F := Ideal) x1 = Cert.Spec.result x1 := by
  funext i
  obtain ⟨p, q, rfl⟩ : ∃ (p : Fin 8192) (q : Fin 8192), i = ix2 p q := ⟨i 0, i 1, eq_ix2 i⟩
  have el : ∀ k : Fin 512, lidx_main_v8 (ix2 p q) k = ix2 p k := fun k =>
    funext fun a => Fin.ext (by match a with | ⟨0, _⟩ => rfl | ⟨1, _⟩ => rfl)
  have er : ∀ k : Fin 512, ridx_main_v8 (ix2 p q) k = ix2 q k := fun k =>
    funext fun a => Fin.ext (by match a with | ⟨0, _⟩ => rfl | ⟨1, _⟩ => rfl)
  rw [val_main_v13_apply, val_main_v10_apply, val_main_v12_apply, val_main_v9_apply, val_main_v11_apply,
    val_main_cst_1_apply, val_main_cst_2_apply, val_main_v8_apply]
  simp only [el, er, ref_unit, Ideal.mulf_def, Ideal.ofBits_def]
  rfl

end Cert.Bridge

end
-- ==== Proof.lean ====
/-
  The kernel scales each row of its 8192 × 512 input to unit Euclidean length (the norm clamped below by a small
  constant) in a first region, block by block of 1024 rows, and in a second region forms every 1024 × 1024 tile of the
  8192 × 8192 matrix of inner products of scaled rows, each entry passed through the leaky rectifier. The reference
  computes the same matrix with whole-array operations. On the extended reals the two are one function of the input
  (`Cert.Spec.result`): a change of float format is the identity, the kernel's lane sum and its matrix product into a
  zero accumulator are the reference's sums term by term, and both sides use the same two literal words. No law that
  fails at an infinity is used, so the precondition is never opened.

  The frames: each kernel program's run is its two regions in order (`Fr.run_main`); the second region reads the
  array of scaled rows through two windows, which hold half of it each. The reference's frame is its run with the
  result dropped. The idealization rewrote no operation, so `preserves` states nothing.
-/
import proofs.«146047_j72791105733237_1_alg».proof.Defs
import proofs.«146047_j72791105733237_1_alg».proof.Proof.Gen.Kernel
import proofs.«146047_j72791105733237_1_alg».proof.Proof.Gen.KernelIdeal
import proofs.«146047_j72791105733237_1_alg».proof.Proof.Gen.ReferenceIdeal
import proofs.«146047_j72791105733237_1_alg».proof.Proof.Gen.Pre_finite_inputs
import proofs.«146047_j72791105733237_1_alg».proof.Proof.Gen.ReferenceIdeal.Run
import proofs.«146047_j72791105733237_1_alg».proof.Proof.Gen.ReferenceIdeal.Read
import proofs.«146047_j72791105733237_1_alg».proof.Proof.KFrameRun
import proofs.«146047_j72791105733237_1_alg».proof.Proof.FrameRun
import proofs.«146047_j72791105733237_1_alg».proof.Proof.KernelValue
import proofs.«146047_j72791105733237_1_alg».proof.Proof.RefValue

noncomputable section

namespace Cert.Proof

open Idealize.ShloMosaic Idealize.ShloMosaic.TcCoe Idealize.SL.Sem

theorem frame_kernel : Cert.frame_Kernel := fun m ρ _ => Cert.Kernel.Fr.frame m ρ

theorem frame_kernelIdeal : Cert.frame_KernelIdeal := fun m ρ _ => Cert.KernelIdeal.Fr.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with their result at `Cert.Spec.result` of the second argument, which the two memories
    agree on. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg1)),
    Cert.Bridge.kernel_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.Bridge.ref_result, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
